-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S16x1024 : Shape := ⟨2, ![16, 1024]⟩
abbrev S16 : Shape := ⟨1, ![16]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S65536x1024 .f32) (main_arg1 : FVec F S16x1024 .f32) (main_arg2 : FVec F S16 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S65536x1024 : Shape := ⟨2, ![65536, 1024]⟩
abbrev S16x1024 : Shape := ⟨2, ![16, 1024]⟩
abbrev S16 : Shape := ⟨1, ![16]⟩
abbrev S1x16 : Shape := ⟨2, ![1, 16]⟩
abbrev S16x65536 : Shape := ⟨2, ![16, 65536]⟩
abbrev S2048x1024 : Shape := ⟨2, ![2048, 1024]⟩
abbrev S16x2048 : Shape := ⟨2, ![16, 2048]⟩
abbrev S2048x16 : Shape := ⟨2, ![2048, 16]⟩
abbrev S65536x16 : Shape := ⟨2, ![65536, 16]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S16x1024, .f32⟩
  | .hbm, ⟨2, _⟩ => ⟨S16, .f32⟩
  | .hbm, ⟨3, _⟩ => ⟨S1x16, .f32⟩
  | .hbm, ⟨4, _⟩ => ⟨S16x65536, .f32⟩
  | .hbm, ⟨5, _⟩ => ⟨S65536x16, .f32⟩
  | .local _ .vmem, ⟨0, _⟩ => ⟨S2048x1024, .f32⟩
  | .local _ .vmem, ⟨1, _⟩ => ⟨S2048x1024, .f32⟩
  | .local _ .vmem, ⟨2, _⟩ => ⟨S16x1024, .f32⟩
  | .local _ .vmem, ⟨3, _⟩ => ⟨S1x16, .f32⟩
  | .local _ .vmem, ⟨4, _⟩ => ⟨S16x2048, .f32⟩
  | .local _ .vmem, ⟨5, _⟩ => ⟨S16x2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16_S1x16 : S16.ShapeCasts S1x16
  inb_S2048x1024_S2048x1024_0_0 : ∀ a, (![0, 0] : Fin 2 → Nat) a + S2048x1024.size a ≤ S2048x1024.size a
  h_S2048x1024 : 0 < S2048x1024.numel
  inb_S16x1024_S16x1024_0_0 : ∀ a, (![0, 0] : Fin 2 → Nat) a + S16x1024.size a ≤ S16x1024.size a
  h_S16x1024 : 0 < S16x1024.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  transposes_S2048x16_p1_0_S16x2048 : S2048x16.Transposes [1, 0] S16x2048
  inb_S16x2048_S16x2048_0_0 : ∀ a, (![0, 0] : Fin 2 → Nat) a + S16x2048.size a ≤ S16x2048.size a
  h_S16x2048 : 0 < S16x2048.numel
  transposes_S16x65536_S65536x16_1_0 : S16x65536.Transposes [1, 0] S65536x16
  dot_S2048x1024_S16x1024_S2048x16_1_1_0_0_n_n_wf : DotDims.WF S2048x1024 S16x1024 S2048x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x65536.size a
  hwx0_3 : ∀ i : grid0.Coords, EltTy.bits .f32 = 32 ∨ (Rect.block (s := S16x65536) S16x2048.size (cc0_transform_3 i) (hinb0_3 i)).WholeWords (EltTy.packing .f32)

variable [Facts₀]

def dot_S2048x1024_S16x1024_S2048x16_1_1_0_0_n_n : DotDims S2048x1024 S16x1024 S2048x16 where
  lhsContracting := [1]
  rhsContracting := [1]
  lhsNonContracting := [0]
  rhsNonContracting := [0]
  lhsBatch := []
  rhsBatch := []
  wf := dot_S2048x1024_S16x1024_S2048x16_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S16x1024 : Shape := ⟨2, ![16, 1024]⟩
abbrev S16 : Shape := ⟨1, ![16]⟩
abbrev S1024x16 : Shape := ⟨2, ![1024, 16]⟩
abbrev S65536x16 : Shape := ⟨2, ![65536, 16]⟩
abbrev S1x16 : Shape := ⟨2, ![1, 16]⟩

abbrev nBuf : Space → Nat
  | .hbm => 8
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x1024, .f32⟩
  | .hbm, ⟨2, _⟩ => ⟨S16, .f32⟩
  | .hbm, ⟨3, _⟩ => ⟨S1024x16, .f32⟩
  | .hbm, ⟨4, _⟩ => ⟨S65536x16, .f32⟩
  | .hbm, ⟨5, _⟩ => ⟨S1x16, .f32⟩
  | .hbm, ⟨6, _⟩ => ⟨S65536x16, .f32⟩
  | .hbm, ⟨7, _⟩ => ⟨S65536x16, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S16x1024_S1024x16_1_0 : S16x1024.Transposes [1, 0] S1024x16
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  dot_S65536x1024_S1024x16_S65536x16_1_0_0_1_n_n_wf : DotDims.WF S65536x1024 S1024x16 S65536x16 [1] [0] [0] [1] [] []

variable [Facts₀]

def dot_S65536x1024_S1024x16_S65536x16_1_0_0_1_n_n : DotDims S65536x1024 S1024x16 S65536x16 where
  lhsContracting := [1]
  rhsContracting := [0]
  lhsNonContracting := [0]
  rhsNonContracting := [1]
  lhsBatch := []
  rhsBatch := []
  wf := dot_S65536x1024_S1024x16_S65536x16_1_0_0_1_n_n_wf

class Facts : Prop extends Facts₀ where

variable [Facts]
-- ==== Proof.Linear.lean ====
/-
  The linear layer `y = x · wᵀ + b` on the extended reals, at this certificate's sizes: `x` is a [65536, 1024] array, `w` a
  [16, 1024] array, `b` sixteen biases. Entry (n, o) of the result is the sum over k of x[n, k] · w[o, k], plus b[o].
  Both programs compute exactly this sum of products and add the bias once, so no law beyond the meaning of the operations
  is needed: no finiteness of the inputs, no distributivity, no reordering of a sum.

  `layer` is the result as the reference lays it out ([65536, 16]); `layerT` is the same numbers laid out
  [16, 65536], with the biases given as a [1, 16] row — what the kernel's region leaves before its result is transposed.
-/
import Idealize.ShloMosaic.PureOps.Ideal
import Idealize.ShloMosaic.Lib.ValueIdx

noncomputable section

namespace Cert.Linear

open Idealize.ShloMosaic Idealize.ShloMosaic.ValueIdx

/-- Row `n` of `x` against row `o` of `w`: the sum over the 1024 features of the products. -/
def rowDot (x : (⟨2, ![65536, 1024]⟩ : Shape).Idx → EReal) (w : (⟨2, ![16, 1024]⟩ : Shape).Idx → EReal)
    (n : Fin 65536) (o : Fin 16) : EReal :=
  ∑ k : Fin 1024, x (ix2 n k) * w (ix2 o k)

/-- The layer's output, [65536, 16]: entry (n, o) is row n of `x` against row o of `w`, plus bias o. -/
def layer (x : (⟨2, ![65536, 1024]⟩ : Shape).Idx → EReal) (w : (⟨2, ![16, 1024]⟩ : Shape).Idx → EReal)
    (b : (⟨1, ![16]⟩ : Shape).Idx → EReal) : (⟨2, ![65536, 16]⟩ : Shape).Idx → EReal :=
  fun i => rowDot x w (i 0) (i 1) + b (ix1 (i 1))

/-- The same numbers laid out [16, 65536], the biases read from a [1, 16] row: entry (o, n) is row n of `x` against
    row o of `w`, plus the row's entry o. -/
def layerT (x : (⟨2, ![65536, 1024]⟩ : Shape).Idx → EReal) (w : (⟨2, ![16, 1024]⟩ : Shape).Idx → EReal)
    (b : (⟨2, ![1, 16]⟩ : Shape).Idx → EReal) : (⟨2, ![16, 65536]⟩ : Shape).Idx → EReal :=
  fun j => rowDot x w (j 1) (j 0) + b (ix2 (0 : Fin 1) (j 0))

/-- `layerT` read at (o, n). -/
theorem layerT_apply (x : (⟨2, ![65536, 1024]⟩ : Shape).Idx → EReal) (w : (⟨2, ![16, 1024]⟩ : Shape).Idx → EReal)
    (b : (⟨2, ![1, 16]⟩ : Shape).Idx → EReal) (o : Fin 16) (n : Fin 65536) :
    layerT x w b (ix2 o n) = (∑ k : Fin 1024, x (ix2 n k) * w (ix2 o k)) + b (ix2 (0 : Fin 1) o) := rfl

/-- Transposing `layerT` of a bias row that is the bias vector gives `layer`: entry (n, o) of one is entry (o, n) of the other. -/
theorem layerT_transposed (x : (⟨2, ![65536, 1024]⟩ : Shape).Idx → EReal) (w : (⟨2, ![16, 1024]⟩ : Shape).Idx → EReal)
    (b : (⟨1, ![16]⟩ : Shape).Idx → EReal) (b' : (⟨2, ![1, 16]⟩ : Shape).Idx → EReal)
    (hb : ∀ o : Fin 16, b' (ix2 (0 : Fin 1) o) = b (ix1 o)) (n : Fin 65536) (o : Fin 16) :
    layerT x w b' (ix2 o n) = layer x w b (ix2 n o) := by
  show rowDot x w n o + b' (ix2 (0 : Fin 1) o) = rowDot x w n o + b (ix1 o)
  rw [hb]

end Cert.Linear

end
-- ==== Proof.RefLinear.lean ====
/-
  The reference computes the linear layer: its five operations — transpose the weights to [1024, 16], contract the
  inputs' feature axis against the transposed weights' first axis, broadcast the biases to a [1, 16] row and then down the
  65536 rows, add — read at an index (n, o) are the sum over k of x[n, k] · w[o, k] plus b[o]. The transposed weight read at
  (k, o) is w[o, k], which is all the transpose contributes.
-/
import proofs.«165726_g31404800869166_cont_8to1_b_1658_11_alg».proof.Proof.Gen.ReferenceIdeal.Read
import proofs.«165726_g31404800869166_cont_8to1_b_1658_11_alg».proof.Proof.Linear

noncomputable section

namespace Cert.ReferenceIdeal.RefValue

open Cert.ReferenceIdeal Cert.ReferenceIdeal.Read Idealize.ShloMosaic Idealize.ShloMosaic.ValueIdx

/-- The left operand of the contraction at output (n, o) and feature k is x[n, k]. -/
theorem lidx_eq (i : S65536x16.Idx) (k : Fin 1024) : lidx_main_v1 i k = ix2 (i 0) k :=
  funext fun a => Fin.ext (by match a with | ⟨0, _⟩ => rfl | ⟨1, _⟩ => rfl)

/-- The right operand there is the transposed weights at (k, o), that is w[o, k]. -/
theorem ridx_eq (i : S65536x16.Idx) (k : Fin 1024) : idx_main_v0 (ridx_main_v1 i k) = ix2 (i 1) k :=
  funext fun a => Fin.ext (by match a with | ⟨0, _⟩ => rfl | ⟨1, _⟩ => rfl)

/-- The twice-broadcast bias at (n, o) is b[o]. -/
theorem bidx_eq (i : S65536x16.Idx) : idx_main_v2 (idx_main_v3 i) = ix1 (i 1) :=
  funext fun a => Fin.ext (by match a with | ⟨0, _⟩ => rfl)

/-- The reference's result is the linear layer of its three arguments. -/
theorem ref_is_layer (x0 : (⟨S65536x1024, .f32⟩ : BufTy).Contents (Elt Ideal)) (x1 : (⟨S16x1024, .f32⟩ : BufTy).Contents (Elt Ideal))
    (x2 : (⟨S16, .f32⟩ : BufTy).Contents (Elt Ideal)) :
    val_main_v4 (F := Ideal) x0 x1 x2 = Cert.Linear.layer x0 x1 x2 := by
  funext i
  rw [val_main_v4_apply, val_main_v1_apply, val_main_v3_apply, val_main_v2_apply]
  simp only [val_main_v0_apply, lidx_eq, ridx_eq, bidx_eq]
  rfl

end Cert.ReferenceIdeal.RefValue

end
-- ==== Proof.BlockLinear.lean ====
/-
  What the kernel's body stores for one block of 2048 input rows, read at an index: the body contracts the block's
  feature axis against the weights' feature axis into a zero accumulator, adds the [1, 16] bias row broadcast down the 2048
  rows, and transposes to [16, 2048]. So entry (o, r) of the stored value is the sum over k of block[r, k] · w[o, k], plus
  the bias row's entry o. The zero accumulator contributes nothing (0 + s = s on the extended reals).
-/
import proofs.«165726_g31404800869166_cont_8to1_b_1658_11_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The contraction's left index at output (r, o) and contraction position q: row r on the non-contracted axis … -/
theorem lhs_row (i : S2048x16.Idx) (q : dot_S2048x1024_S16x1024_S2048x16_1_1_0_0_n_n.contr.Idx) :
    (dot_S2048x1024_S16x1024_S2048x16_1_1_0_0_n_n.lhsIdx i q 0).val = (i 0).val := by
  unfold DotDims.lhsIdx
  rw [dif_neg (show ¬(0 : Fin S2048x1024.rank) ∈ dot_S2048x1024_S16x1024_S2048x16_1_1_0_0_n_n.lhsBatch by decide), dif_pos (show (0 : Fin S2048x1024.rank) ∈ dot_S2048x1024_S16x1024_S2048x16_1_1_0_0_n_n.lhsNonContracting by decide)]
  rfl
/-- … and the contraction position on the feature axis. -/
theorem lhs_feat (i : S2048x16.Idx) (q : dot_S2048x1024_S16x1024_S2048x16_1_1_0_0_n_n.contr.Idx) :
    (dot_S2048x1024_S16x1024_S2048x16_1_1_0_0_n_n.lhsIdx i q 1).val = (q ⟨0, by decide⟩).val :=
  dot_S2048x1024_S16x1024_S2048x16_1_1_0_0_n_n.lhsIdx_val_of_single rfl i q
/-- The right index: weight row o on the non-contracted axis … -/
theorem rhs_row (i : S2048x16.Idx) (q : dot_S2048x1024_S16x1024_S2048x16_1_1_0_0_n_n.contr.Idx) :
    (dot_S2048x1024_S16x1024_S2048x16_1_1_0_0_n_n.rhsIdx i q 0).val = (i 1).val := by
  unfold DotDims.rhsIdx
  rw [dif_neg (show ¬(0 : Fin S16x1024.rank) ∈ dot_S2048x1024_S16x1024_S2048x16_1_1_0_0_n_n.rhsBatch by decide), dif_pos (show (0 : Fin S16x1024.rank) ∈ dot_S2048x1024_S16x1024_S2048x16_1_1_0_0_n_n.rhsNonContracting by decide)]
  rfl
/-- … and the contraction position on the feature axis. -/
theorem rhs_feat (i : S2048x16.Idx) (q : dot_S2048x1024_S16x1024_S2048x16_1_1_0_0_n_n.contr.Idx) :
    (dot_S2048x1024_S16x1024_S2048x16_1_1_0_0_n_n.rhsIdx i q 1).val = (q ⟨0, by decide⟩).val :=
  dot_S2048x1024_S16x1024_S2048x16_1_1_0_0_n_n.rhsIdx_val_of_single rfl i q

/-- The body's matrix product into the zero accumulator, at (r, o): the sum over the features of block[r, k] · w[o, k]. -/
theorem product_apply (x0 : FVec Ideal S2048x1024 .f32) (x1 : FVec Ideal S16x1024 .f32) (r : Fin 2048) (o : Fin 16) :
    FloatOps.matmul dot_S2048x1024_S16x1024_S2048x16_1_1_0_0_n_n none x0 x1 (constant (F := Ideal) S2048x16 .f32 0x00000000#32) (ix2 r o)
      = ∑ k : Fin 1024, x0 (ix2 r k) * x1 (ix2 o k) := by
  rw [Ideal.matmul_constant_zero_apply, ← Equiv.sum_comp (contrEquiv1 dot_S2048x1024_S16x1024_S2048x16_1_1_0_0_n_n 1024 rfl rfl).symm]
  refine Finset.sum_congr rfl fun k _ => ?_
  have hk := contrEquiv1_symm_val dot_S2048x1024_S16x1024_S2048x16_1_1_0_0_n_n 1024 rfl rfl k
  have el : dot_S2048x1024_S16x1024_S2048x16_1_1_0_0_n_n.lhsIdx (ix2 r o) ((contrEquiv1 dot_S2048x1024_S16x1024_S2048x16_1_1_0_0_n_n 1024 rfl rfl).symm k) = ix2 r k := funext fun a => Fin.ext (by
    match a with
    | ⟨0, _⟩ => exact lhs_row _ _
    | ⟨1, _⟩ => exact (lhs_feat _ _).trans hk)
  have er : dot_S2048x1024_S16x1024_S2048x16_1_1_0_0_n_n.rhsIdx (ix2 r o) ((contrEquiv1 dot_S2048x1024_S16x1024_S2048x16_1_1_0_0_n_n 1024 rfl rfl).symm k) = ix2 o k := funext fun a => Fin.ext (by
    match a with
    | ⟨0, _⟩ => exact rhs_row _ _
    | ⟨1, _⟩ => exact (rhs_feat _ _).trans hk)
  rw [el, er]

/-- The bias row broadcast down the rows, at (r, o), is the row's entry o. -/
theorem bias_apply (x2 : FVec Ideal S1x16 .f32) (r : Fin 2048) (o : Fin 16) :
    broadcastTo S2048x16 (shapeCast S1x16 x2 shapeCasts_S1x16_S1x16) broadcasts_S1x16_S2048x16 (ix2 r o) = x2 (ix2 (0 : Fin 1) o) := by
  rw [shapeCast_self]
  exact broadcastTo_apply x2 broadcasts_S1x16_S2048x16 (ix2 r o) (ix2 (0 : Fin 1) o) (fun a => match a with
    | ⟨0, _⟩ => by show 0 = if (1 : Nat) = 1 then 0 else r.val; rw [if_pos rfl]
    | ⟨1, _⟩ => by show o.val = if (16 : Nat) = 1 then 0 else o.val; rw [if_neg (by decide)])

/-- THE STORED VALUE at (o, r): the sum over k of block[r, k] · w[o, k], plus the bias row's entry o. -/
theorem pay_apply (x0 : Vec Ideal S2048x1024 .f32) (x1 : Vec Ideal S16x1024 .f32) (x2 : Vec Ideal S1x16 .f32) (o : Fin 16) (r : Fin 2048) :
    k0_pay1 (F := Ideal) x0 x1 x2 (ix2 o r) = (∑ k : Fin 1024, x0 (ix2 r k) * x1 (ix2 o k)) + x2 (ix2 (0 : Fin 1) o) := by
  unfold k0_pay1
  refine (transpose_apply [1, 0] _ transposes_S2048x16_p1_0_S16x2048 (ix2 o r) (ix2 r o) (fun b => match b with
    | ⟨0, _⟩ => rfl
    | ⟨1, _⟩ => rfl)).trans ?_
  refine (addf_apply _ _ (ix2 r o)).trans ?_
  refine congrArg₂ (· + ·) (product_apply x0 x1 r o) (bias_apply x2 r o)

end Cert.KernelIdeal.Block

end
-- ==== Proof.KernelLinear.lean ====
/-
  The kernel's program computes the linear layer. Its region walks 32 grid points; point t takes rows 2048·t … 2048·t + 2047
  of the inputs, all of the weights and the [1, 16] bias row, and writes back columns 2048·t … 2048·t + 2047 of a [16, 65536]
  array. What it writes is the block of `layerT` at those columns (the stored value read at an index, with each input block
  read where the output's columns say); the 32 column blocks tile the array, so after the region the array is `layerT` of
  the inputs as the region finds them. The host line before the region only reshapes the sixteen biases to a [1, 16] row;
  the host line after it transposes the array to [65536, 16], which turns `layerT` into `layer`.
-/
import proofs.«165726_g31404800869166_cont_8to1_b_1658_11_alg».proof.Proof.Gen.KernelIdeal.Frame
import proofs.«165726_g31404800869166_cont_8to1_b_1658_11_alg».proof.Proof.BlockLinear
import proofs.«165726_g31404800869166_cont_8to1_b_1658_11_alg».proof.Proof.Linear
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 32 points: the input rows' block and the output columns' block are the
    point's number; the weights and the bias row are one block each. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- Row r of point t's input block is row 2048·t + r of the inputs. -/
theorem rows_block (c : Dev nD) (t : Fin cfg0.N) (r : Fin 2048) (k : Fin 1024) (n : Fin 65536) (hn : n.val = t.val * 2048 + r.val) :
    (iblk m c 0 t : Vec Ideal S2048x1024 .f32) (ix2 r k) = (V m c main_arg0 : S65536x1024.Idx → EReal) (ix2 n k) := by
  obtain ⟨e00, e01, -⟩ := block_indices t
  show V m c main_arg0 (((cfg0.win 0).blk t).view.emb (ix2 r k)) = V m c main_arg0 (ix2 n k)
  refine congrArg (V m c main_arg0) (funext fun a => Fin.ext ?_)
  match a with
  | ⟨0, _⟩ => show win0_0.index t (0 : Fin 2) * 2048 + 1 * r.val = n.val; rw [e00, hn]; omega
  | ⟨1, _⟩ => show win0_0.index t (1 : Fin 2) * 1024 + 1 * k.val = k.val; rw [e01]; omega

/-- Every point's weight block is the weights. -/
theorem weights_block (c : Dev nD) (t : Fin cfg0.N) (o : Fin 16) (k : Fin 1024) :
    (iblk m c 1 t : Vec Ideal S16x1024 .f32) (ix2 o k) = (V m c main_arg1 : S16x1024.Idx → EReal) (ix2 o k) := by
  obtain ⟨-, -, e10, e11, -⟩ := block_indices t
  show V m c main_arg1 (((cfg0.win 1).blk t).view.emb (ix2 o k)) = V m c main_arg1 (ix2 o k)
  refine congrArg (V m c main_arg1) (funext fun a => Fin.ext ?_)
  match a with
  | ⟨0, _⟩ => show win0_1.index t (0 : Fin 2) * 16 + 1 * o.val = o.val; rw [e10]; omega
  | ⟨1, _⟩ => show win0_1.index t (1 : Fin 2) * 1024 + 1 * k.val = k.val; rw [e11]; omega

/-- Every point's bias block is the bias row. -/
theorem bias_block (c : Dev nD) (t : Fin cfg0.N) (o : Fin 16) :
    (iblk m c 2 t : Vec Ideal S1x16 .f32) (ix2 (0 : Fin 1) o) = (V m c main_v0 : S1x16.Idx → EReal) (ix2 (0 : Fin 1) o) := by
  obtain ⟨-, -, -, -, e20, e21, -⟩ := block_indices t
  show V m c main_v0 (((cfg0.win 2).blk t).view.emb (ix2 (0 : Fin 1) o)) = V m c main_v0 (ix2 (0 : Fin 1) o)
  refine congrArg (V m c main_v0) (funext fun a => Fin.ext ?_)
  match a with
  | ⟨0, _⟩ => show win0_2.index t (0 : Fin 2) * 1 + 1 * 0 = 0; rw [e20]
  | ⟨1, _⟩ => show win0_2.index t (1 : Fin 2) * 16 + 1 * o.val = o.val; rw [e21]; omega

/-- WHAT POINT t WRITES BACK is its column block of `layerT` of the arrays as the region finds them. -/
theorem written_back (c : Dev nD) (t : Fin cfg0.N) :
    (dats m 0 c).flushed 3 t = ((cfg0.win 3).blk t).view.read (Elt Ideal)
      (Cert.Linear.layerT (V m c main_arg0) (V m c main_arg1) (V m c main_v0)) := by
  show (cfg0.win 3).cut (grid0.coords t) ((dats m 0 c).after 3 t) = _
  rw [after0_3]
  unfold out0_3
  rw [View.canon_unit_zero zero_offsets]
  simp only [View.ld_unit_zero (S := S2048x1024) zero_offsets, View.ld_unit_zero (S := S16x1024) zero_offsets, View.ld_unit_zero (S := S1x16) zero_offsets]
  obtain ⟨-, -, -, -, -, -, e30, e31⟩ := block_indices t
  have hN : cfg0.N = 32 := N_0
  have ht : t.val < 32 := hN ▸ t.isLt
  funext j
  obtain ⟨o, r, rfl⟩ : ∃ (o : Fin 16) (r : Fin 2048), j = ix2 o r := ⟨j 0, j 1, eq_ix2 j⟩
  have hemb : ((cfg0.win 3).blk t).view.emb (ix2 o r) = ix2 o (⟨t.val * 2048 + r.val, by omega⟩ : Fin 65536) := by
    funext a; apply Fin.ext
    match a with
    | ⟨0, _⟩ => show win0_3.index t (0 : Fin 2) * 16 + 1 * o.val = o.val; rw [e30]; omega
    | ⟨1, _⟩ => show win0_3.index t (1 : Fin 2) * 2048 + 1 * r.val = t.val * 2048 + r.val; rw [e31]; omega
  show k0_pay1 (F := Ideal) (iblk m c 0 t) (iblk m c 1 t) (iblk m c 2 t) (ix2 o r)
    = Cert.Linear.layerT (V m c main_arg0) (V m c main_arg1) (V m c main_v0) (((cfg0.win 3).blk t).view.emb (ix2 o r))
  rw [hemb]
  refine (Cert.KernelIdeal.Block.pay_apply (iblk m c 0 t) (iblk m c 1 t) (iblk m c 2 t) o r).trans ?_
  refine Eq.trans ?_ (Cert.Linear.layerT_apply _ _ _ o _).symm
  refine congrArg₂ (· + ·) (Finset.sum_congr rfl fun k _ => ?_) (bias_block m c t o)
  exact congrArg₂ (· * ·) (rows_block m c t r k _ rfl) (weights_block m c t o k)

/-- An index of the [16, 65536] array is in point t's block iff each coordinate is in the block's range on its axis. -/
theorem mem_column_block (t : Fin cfg0.N) (i : S16x65536.Idx) :
    i ∈ ((cfg0.win 3).blk t).view.set ↔ ∀ a : Fin 2, win0_3.index t a * S16x2048.size a ≤ (i a).val ∧ (i a).val < win0_3.index t a * S16x2048.size a + S16x2048.size a := by
  show i ∈ ((View.whole main_v1).slice (win0_3.rect t)).set ↔ _
  rw [View.set_slice_whole, Rect.mem_set_unit]
  exact Iff.rfl

/-- THE COVER: column n lies in the block of point n / 2048. -/
theorem columns_covered (i : S16x65536.Idx) : ∃ t : Fin cfg0.N, (cfg0.win 3).flush t = true ∧ i ∈ ((cfg0.win 3).blk t).view.set := by
  have hN : cfg0.N = 32 := N_0
  have hi0 : (i 0).val < 16 := (i 0).isLt
  have hi1 : (i 1).val < 65536 := (i 1).isLt
  let t : Fin cfg0.N := ⟨(i 1).val / 2048, by rw [hN]; omega⟩
  have htv : t.val = (i 1).val / 2048 := rfl
  obtain ⟨-, -, -, -, -, -, e30, e31⟩ := block_indices t
  refine ⟨t, flush0_3 t, ?_⟩
  rw [mem_column_block]
  intro a
  match a with
  | ⟨0, _⟩ => show win0_3.index t (0 : Fin 2) * 16 ≤ (i 0).val ∧ (i 0).val < win0_3.index t (0 : Fin 2) * 16 + 16; rw [e30]; omega
  | ⟨1, _⟩ => show win0_3.index t (1 : Fin 2) * 2048 ≤ (i 1).val ∧ (i 1).val < win0_3.index t (1 : Fin 2) * 2048 + 2048; rw [e31, htv]; omega

/-- THE ARRAY AFTER THE REGION is `layerT` of the arrays as the region finds them. -/
theorem region_array (c : Dev nD) :
    (dats m 0 c).arrAt 3 cfg0.N = Cert.Linear.layerT (V m c main_arg0) (V m c main_arg1) (V m c main_v0) :=
  (dats m 0 c).arrAt_eq_of_cover 3 _ (fun t _ => written_back m c t) columns_covered

/-- The bias row the region finds is the sixteen biases reshaped to [1, 16]: its entry (0, o) is bias o. -/
theorem bias_row (c : Dev nD) (o : Fin 16) :
    (V m c main_v0 : S1x16.Idx → EReal) (ix2 (0 : Fin 1) o) = (m ((c : Thread nD τ).loc main_arg2) : S16.Idx → EReal) (ix1 o) := by
  have e : (V m c main_v0 : S1x16.Idx → EReal) = shapeCast S1x16 (m ((c : Thread nD τ).loc main_arg2) : S16.Idx → EReal) shapeCasts_S16_S1x16 := by
    show StableHlo.after hostOps0 (fun b => m (c, b)) (Proc.devRef .tc main_v0) = _
    after_results
    rfl
  rw [e]
  exact shapeCast_a_1a_apply _ shapeCasts_S16_S1x16 (0 : Fin 1) o

/-- THE RESULT: what the line after the region leaves in @main's result buffer is the linear layer of the arguments. -/
theorem result_array (c : Dev nD) :
    Pipeline.afterTail₀ cfgs (dats m) 0 (V0 m) [hostOps1] c main_v2
      = Cert.Linear.layer (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v1)
      = Cert.Linear.layerT (V m c main_arg0) (V m c main_arg1) (V m c main_v0) :=
    (Pipeline.withArrays_arr spec0 launch0.win.arr_inj c _ _ 3).trans (region_array m c)
  rw [hA]
  funext i
  obtain ⟨n, o, rfl⟩ : ∃ (n : Fin 65536) (o : Fin 16), i = ix2 n o := ⟨i 0, i 1, eq_ix2 i⟩
  refine (transpose_ix2_apply _ transposes_S16x65536_S65536x16_1_0 n o).trans ?_
  rw [V_main_arg0, V_main_arg1]
  exact Cert.Linear.layerT_transposed _ _ _ _ (bias_row m c) n o

/-- THE RUN, READ: every weakly fair execution of the kernel's program terminates with @main's result buffer at the
    linear layer of the arguments, and the three arguments as launched (the inputs and the weights are staged and never
    written back; the biases are touched by no window and by no host line). -/
theorem run : θ_run defs (onTc (τ := τ) (main (F := Ideal))) ⟨m, fun _ => 0, ρ⟩ fun r => ∀ c : Dev nD,
      r.2.mem ((c.tc : Thread nD τ).loc main_v2)
        = Cert.Linear.layer (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v2 (Pipeline.mem_restRefs_of main_v2 (by decide) (by decide))).trans (result_array m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (W_main_arg2 m (dats m) c)⟩)
    (run_main m ρ)

end Cert.KernelIdeal.Whole

end
-- ==== Proof.lean ====
/-
  The kernel and its reference both compute the linear layer `y = x · wᵀ + b` for a [65536, 1024] input, a [16, 1024]
  weight and sixteen biases: entry (n, o) of the result is the sum over k of x[n, k] · w[o, k], plus b[o]
  (Proof/Linear.lean states this once, `Cert.Linear.layer`).

  The reference transposes the weights, contracts, broadcasts the biases and adds (Proof/RefLinear.lean reads its five
  operations at an index). The kernel reshapes the biases to a [1, 16] row, runs a region of 32 grid points — each
  contracting 2048 input rows against the weights into a zero accumulator, adding the bias row and storing the transposed
  [16, 2048] block (Proof/BlockLinear.lean reads the stored value at an index) — whose column blocks tile a [16, 65536]
  array, and transposes that array back (Proof/KernelLinear.lean). On the extended reals the two results are the same
  sums of the same products with the same bias added once, so they agree entry by entry with no use of the inputs'
  finiteness. The idealized kernel is the kernel's own text read over the extended reals (no operation was rewritten),
  so `preserves` asks nothing.
-/
import proofs.«165726_g31404800869166_cont_8to1_b_1658_11_alg».proof.Defs
import proofs.«165726_g31404800869166_cont_8to1_b_1658_11_alg».proof.Proof.Gen.Kernel
import proofs.«165726_g31404800869166_cont_8to1_b_1658_11_alg».proof.Proof.Gen.Kernel.Skeleton
import proofs.«165726_g31404800869166_cont_8to1_b_1658_11_alg».proof.Proof.Gen.Kernel.Launch
import proofs.«165726_g31404800869166_cont_8to1_b_1658_11_alg».proof.Proof.Gen.Kernel.Points
import proofs.«165726_g31404800869166_cont_8to1_b_1658_11_alg».proof.Proof.Gen.Kernel.Frame
import proofs.«165726_g31404800869166_cont_8to1_b_1658_11_alg».proof.Proof.Gen.KernelIdeal
import proofs.«165726_g31404800869166_cont_8to1_b_1658_11_alg».proof.Proof.Gen.KernelIdeal.Skeleton
import proofs.«165726_g31404800869166_cont_8to1_b_1658_11_alg».proof.Proof.Gen.KernelIdeal.Launch
import proofs.«165726_g31404800869166_cont_8to1_b_1658_11_alg».proof.Proof.Gen.KernelIdeal.Points
import proofs.«165726_g31404800869166_cont_8to1_b_1658_11_alg».proof.Proof.Gen.KernelIdeal.Frame
import proofs.«165726_g31404800869166_cont_8to1_b_1658_11_alg».proof.Proof.Gen.ReferenceIdeal
import proofs.«165726_g31404800869166_cont_8to1_b_1658_11_alg».proof.Proof.Gen.Pre_finite_inputs
import proofs.«165726_g31404800869166_cont_8to1_b_1658_11_alg».proof.Proof.Gen.ReferenceIdeal.Run
import proofs.«165726_g31404800869166_cont_8to1_b_1658_11_alg».proof.Proof.Gen.ReferenceIdeal.Read
import proofs.«165726_g31404800869166_cont_8to1_b_1658_11_alg».proof.Proof.Linear
import proofs.«165726_g31404800869166_cont_8to1_b_1658_11_alg».proof.Proof.RefLinear
import proofs.«165726_g31404800869166_cont_8to1_b_1658_11_alg».proof.Proof.KernelLinear
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with the linear layer of those arguments in
    their result buffers: the kernel's by its run, the reference's because its operations' term is the layer. -/
theorem algebraic : Cert.algebraic_KernelIdeal_ReferenceIdeal := by
  intro m ρ m' ρ' _ hagree
  refine ⟨fun c => Cert.Linear.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.ref_is_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
